-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S16384x1024 .f32) (main_arg1 : FVec F S4096x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S16384x1024 : Shape := ⟨2, ![16384, 1024]⟩
abbrev S4096x1024 : Shape := ⟨2, ![4096, 1024]⟩
abbrev S16384x4096 : Shape := ⟨2, ![16384, 4096]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096x1024, .bf16⟩
  | .hbm, ⟨3, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.LibKeepdims.lean ====
/-
  Column vectors kept as two-dimensional arrays, read at an index.

  A row sum taken with `keepdims` leaves a vector of length `a` as an `[a, 1]` array; the kernel then re-lays that
  column (a transpose to `[1, a]`, a broadcast along the rows or along the columns). Each lemma below reads ONE such
  operation at an index written by its coordinates (`ix1`, `ix2`), so that a chain of them walks from an element of the
  broadcast array back to the element of the vector it copies. The rest read a sum along the second axis of a matrix
  as a sum over the column coordinate: the index the reduction inserts at row `p` and column `k` is `(p, k)`
  (`lift_row`), so the vector unit's reduction, whose accumulator word is the sum's neutral element and adds nothing,
  is at row `p` the sum of the row's entries (`rowSum_apply`; `rowSum_zero_f32_apply` for the f32 zero word).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Keepdims

open Idealize.ShloMosaic Idealize.ShloMosaic.ValueIdx

variable {α : Type}

/-- A vector of length `a` cast to a column `[a, 1]` reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the second axis of a matrix inserts: row `p`, column `k`. -/
theorem lift_row {a b : ℕ} (h : (⟨2, ![a, b]⟩ : Shape).Reduces [1] ⟨1, ![a]⟩) (p : Fin a) (k : Fin b) :
    h.lift (ix1 p) k = ix2 p k :=
  funext fun d => Fin.ext (by match d with | ⟨0, _⟩ => rfl | ⟨1, _⟩ => rfl)

/-- At the exact values, the vector unit's sum along the second axis of a matrix, started from the zero word, is at row
    `p` the sum over the columns `k` of the entries `(p, k)`. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- The same for the f32 zero word with the accumulator's neutrality stated as the plain equation of words a printed
    body carries (`0 = 0`: the neutral element of an f32 sum IS the zero word, by computation). -/
theorem rowSum_zero_f32_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) :=
  rowSum_apply v _ h hφ hacc p

end Cert.Keepdims

end
-- ==== Proof.SqDist.lean ====
/-
  The clamped squared Euclidean distance between every row of `x` and every row of `c`, as ONE function of the two
  arrays, index by index, on the extended reals:

      dist x c (p, q) = max ( (Σₖ x[p,k]² + Σₖ c[q,k]²) − 2 · Σₖ x[p,k] · c[q,k] , 0 ).

  This is ‖x_p‖² + ‖c_q‖² − 2⟨x_p, c_q⟩ = ‖x_p − c_q‖² with the two norms and the inner product kept as the three
  separate sums both programs compute, in the grouping both programs use, so that no law of the extended reals
  beyond `0 + s = s` is needed to meet either side (and none that fails at an infinity). The scale `2` stays the float
  word `0x40000000` both programs print: the same word on both sides is never evaluated.
-/
import Idealize.ShloMosaic.PureOps.Ideal
import Idealize.ShloMosaic.Lib.ValueIdx

noncomputable section

open scoped BigOperators

namespace Cert.SqDist

open Idealize.ShloMosaic Idealize.ShloMosaic.ValueIdx

/-- The entry for row `p` of an `[A, K]` array and row `q` of a `[B, K]` array: the two squared norms, less twice
    the inner product, clamped below at zero. Generic in the extents: the whole arrays use it at `16384 × 4096`, one
    block of the kernel at `1024 × 1024`. -/
def entry {A B K : ℕ} (x : (⟨2, ![A, K]⟩ : Shape).Idx → EReal) (c : (⟨2, ![B, K]⟩ : Shape).Idx → EReal)
    (p : Fin A) (q : Fin B) : EReal :=
  max (((∑ k : Fin K, x (ix2 p k) * x (ix2 p k)) + (∑ k : Fin K, c (ix2 q k) * c (ix2 q k)))
      - Ideal.ofBits .f32 0x40000000#32 * ∑ k : Fin K, x (ix2 p k) * c (ix2 q k)) 0

/-- The whole result array: `entry` at the index's two coordinates. -/
def dist {A B K : ℕ} (x : (⟨2, ![A, K]⟩ : Shape).Idx → EReal) (c : (⟨2, ![B, K]⟩ : Shape).Idx → EReal) :
    (⟨2, ![A, B]⟩ : Shape).Idx → EReal :=
  fun i => entry x c (i 0) (i 1)

theorem dist_ix2 {A B K : ℕ} (x : (⟨2, ![A, K]⟩ : Shape).Idx → EReal) (c : (⟨2, ![B, K]⟩ : Shape).Idx → EReal)
    (p : Fin A) (q : Fin B) : dist x c (ix2 p q) = entry x c p q := rfl

/-- An entry depends only on row `p` of `x` and row `q` of `c`: two pairs of arrays that agree on those rows (here a
    block and the whole array it was cut from) have the same entry. -/
theorem entry_congr {A B A' B' K : ℕ} (x : (⟨2, ![A, K]⟩ : Shape).Idx → EReal) (c : (⟨2, ![B, K]⟩ : Shape).Idx → EReal)
    (x' : (⟨2, ![A', K]⟩ : Shape).Idx → EReal) (c' : (⟨2, ![B', K]⟩ : Shape).Idx → EReal)
    (p : Fin A) (q : Fin B) (p' : Fin A') (q' : Fin B')
    (hx : ∀ k : Fin K, x (ix2 p k) = x' (ix2 p' k)) (hc : ∀ k : Fin K, c (ix2 q k) = c' (ix2 q' k)) :
    entry x c p q = entry x' c' p' q' := by
  unfold entry
  simp only [hx, hc]

end Cert.SqDist

end
-- ==== Proof.BlockValue.lean ====
/-
  What the kernel's body leaves in one output block, entry by entry.

  The body holds a `1024 × 1024` block `xb` of `x` and a `1024 × 1024` block `cb` of the (rounded) centres. It forms the
  row sums of squares of each block, lays the first out as a column and the second (through a transpose) as a row,
  broadcasts both over the `1024 × 1024` tile, multiplies the two blocks on the matrix unit contracting their second
  axes (`xb · cbᵀ`, into a zero accumulator), and stores `max(col + row − 2·prod, 0)`. Read at `(p, q)` at the exact
  values — where rounding to bf16 and widening back are the identity — this is `SqDist.entry xb cb p q`: the clamped
  squared distance between row `p` of `xb` and row `q` of `cb`.
-/
import proofs.«114532_j52424370815597_2_alg».proof.Proof.Gen.KernelIdeal.Skeleton
import proofs.«114532_j52424370815597_2_alg».proof.Proof.LibKeepdims
import proofs.«114532_j52424370815597_2_alg».proof.Proof.SqDist
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Cert.KernelIdeal.Facts₀ Idealize.ShloMosaic Idealize.ShloMosaic.ValueIdx Cert.Keepdims Cert.SqDist

/-- The body's one matrix product: both operands contracted along their second axis, no batch axis. -/
abbrev D := dot_S1024x1024_S1024x1024_S1024x1024_1_1_0_0_n_n

/-! The operand indices of that product at output index `i` and contraction index `q`, coordinate by coordinate:
    the left operand is read at `(i 0, q)`, the right one at `(i 1, q)`. -/

theorem lhs_0 (i : S1024x1024.Idx) (q : D.contr.Idx) : (D.lhsIdx i q 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs_1 (i : S1024x1024.Idx) (q : D.contr.Idx) : (D.lhsIdx i q 1).val = (q ⟨0, by decide⟩).val :=
  D.lhsIdx_val_of_single rfl i q
theorem rhs_0 (i : S1024x1024.Idx) (q : D.contr.Idx) : (D.rhsIdx i q 0).val = (i 1).val := by
  unfold DotDims.rhsIdx
  rw [dif_neg (show ¬(0 : Fin S1024x1024.rank) ∈ D.rhsBatch by decide), dif_pos (show (0 : Fin S1024x1024.rank) ∈ D.rhsNonContracting by decide)]
  rfl
theorem rhs_1 (i : S1024x1024.Idx) (q : D.contr.Idx) : (D.rhsIdx i q 1).val = (q ⟨0, by decide⟩).val :=
  D.rhsIdx_val_of_single rfl i q

/-- So the product into a zero accumulator, read at `(p, q)` at the exact values, is the inner product of row `p` of
    the left operand with row `q` of the right one. -/
theorem matmul_rows {φ₁ φ₂ : FTy} (l : FVec Ideal S1024x1024 φ₁) (r : FVec Ideal S1024x1024 φ₂) (p q : Fin 1024) :
    matmul D none l r (constant S1024x1024 .f32 0x00000000#32) (ix2 p q) = ∑ k : Fin 1024, l (ix2 p k) * r (ix2 q k) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 1024 rfl rfl).symm k) = ix2 q k := funext fun a => Fin.ext (by
    match a with
    | ⟨0, _⟩ => exact rhs_0 _ _
    | ⟨1, _⟩ => exact (rhs_1 _ _).trans hk)
  rw [el, er]

/-- The stored value at `(p, q)`: the clamped squared distance between row `p` of the `x` block and row `q` of the
    centres' block. The pointwise layers read through by definition; each re-laying (column, transpose, the two
    broadcasts), each row sum and the matrix product is read by its own lemma. -/
theorem pay_apply (x0 : Vec Ideal S1024x1024 .f32) (x1 : Vec Ideal S1024x1024 .bf16) (p q : Fin 1024) :
    k0_pay1 (F := Ideal) x0 x1 (ix2 p q) = entry x0 x1 p q := by
  unfold k0_pay1
  simp only [maximumf_apply, subf_apply, addf_apply, mulf_apply, broadcast_apply]
  rw [broadcastTo_a1_ab_apply, shapeCast_a_a1_apply, rowSum_zero_f32_apply, broadcastTo_1b_ab_apply, transpose_ix2_apply,
    shapeCast_a_a1_apply, rowSum_zero_f32_apply, matmul_rows]
  simp only [mulf_apply, extf_apply, truncf_apply, shapeCast_self, entry, Ideal.ofBits_def, Ideal.ofBits_zero_f32]

end Cert.KernelIdeal.BlockValue

end
-- ==== Proof.ArrayValue.lean ====
/-
  From blocks to the whole result array.

  The grid has 16 × 4 points. Point `t = (i, j)` fetches rows `1024·i …` of `x` (all 1024 columns) and rows `1024·j …` of
  the centres, and writes back the `1024 × 1024` tile of the result with corner `(1024·i, 1024·j)`. By `BlockValue.pay_apply`
  entry `(p, q)` of that tile is the clamped squared distance between row `p` of the `x` block and row `q` of the centres'
  block, that is, between row `1024·i + p` of `x` and row `1024·j + q` of the centres: the tile is the restriction of ONE
  whole-array function, `SqDist.dist x c`, to the tile's index set. The 64 tiles cover every index of the
  `16384 × 4096` result (index `(r, s)` lies in the tile of point `(r / 1024, s / 1024)`), so the array after the run is
  `SqDist.dist x c`. The centres the region finds are the host's rounding of the argument to bf16, which at the exact
  values is the argument itself.
-/
import proofs.«114532_j52424370815597_2_alg».proof.Proof.Gen.KernelIdeal.Value
import proofs.«114532_j52424370815597_2_alg».proof.Proof.BlockValue
import proofs.«114532_j52424370815597_2_alg».proof.Proof.SqDist
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The two arrays the region reads, as it finds them: `x`, and the centres after the host's rounding. -/
abbrev X (c : Dev nD) : S16384x1024.Idx → EReal := V m c main_arg0
abbrev C (c : Dev nD) : S4096x1024.Idx → EReal := V m c main_v0

/-- At the exact values the rounding of the centres to bf16 is the identity: the region finds the argument. -/
theorem centres_eq (c : Dev nD) : C m c = m ((c : Thread nD τ).loc main_arg1) := by
  show (V m c main_v0 : S4096x1024.Idx → EReal) = _
  dsimp only [Gen.V, Gen.hostOps0]; after_results; rfl

/-- One tile, over variables: if the `x` block holds rows `1024·bi + r` of `X` and the centres' block rows `1024·bj + r` of
    `C`, the body's stored value at `y` is the whole-array distance at `(1024·bi + y₀, 1024·bj + y₁)`. -/
theorem tile_eq (X : S16384x1024.Idx → EReal) (C : S4096x1024.Idx → EReal)
    (x0 : Vec Ideal S1024x1024 .f32) (x1 : Vec Ideal S1024x1024 .bf16) (bi bj : ℕ) (hbi : bi ≤ 15) (hbj : bj ≤ 3)
    (h0 : ∀ r k : Fin 1024, x0 (ix2 r k) = X (ix2 (⟨bi * 1024 + r.val, by omega⟩ : Fin 16384) k))
    (h1 : ∀ r k : Fin 1024, x1 (ix2 r k) = C (ix2 (⟨bj * 1024 + r.val, by omega⟩ : Fin 4096) k))
    (y : S1024x1024.Idx) :
    k0_pay1 (F := Ideal) x0 x1 y
      = dist X C (ix2 (⟨bi * 1024 + (y 0).val, by have := idx2_lt0 y; omega⟩ : Fin 16384)
          (⟨bj * 1024 + (y 1).val, by have := idx2_lt1 y; omega⟩ : Fin 4096)) := by
  obtain ⟨p, q, rfl⟩ : ∃ p q : Fin 1024, y = ix2 p q := ⟨y 0, y 1, eq_ix2 y⟩
  exact (BlockValue.pay_apply x0 x1 p q).trans (entry_congr x0 x1 X C p q _ _ (h0 p) (h1 q))

/-- The printed index maps, decided over the 64 points: the `x` window follows the output's row-block index, the
    centres' window its column-block index, both at column-block 0; the output's block indices stay in range. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 3 :=
  (by decide +kernel : ∀ t : Fin grid0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 3)

/-- Every tile of the 16 × 4 tiling is some point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- What point `t` writes back is tile `t` of the whole-array distance of the arrays the region finds. -/
theorem flushed_eq (c : Dev nD) (t : Fin cfg0.N) :
    (dats m 0 c).flushed 2 t = ((cfg0.win 2).blk t).view.read (Elt Ideal) (dist (X m c) (C m c)) := by
  rw [flushed2]
  unfold out0_2
  rw [View.canon_unit_zero zero_off]
  simp only [View.ld_unit_zero (S := S1024x1024) zero_off]
  obtain ⟨e0, e1, e2, e3, e4, e5⟩ := idx_facts t
  funext j
  show k0_pay1 (F := Ideal) (iblk m c 0 t) (iblk m c 1 t) j = dist (X m c) (C m c) (((cfg0.win 2).blk t).view.emb j)
  refine (tile_eq (X m c) (C m c) (iblk m c 0 t) (iblk m c 1 t) (win0_2.index t (0 : Fin 2)) (win0_2.index t (1 : Fin 2))
    e4 e5 ?_ ?_ j).trans ?_
  · intro r k
    show V m c main_arg0 (((cfg0.win 0).blk t).view.emb (ix2 r k)) = V m c main_arg0 _
    refine congrArg (V m c main_arg0) (funext fun a => Fin.ext ?_)
    match a with
    | ⟨0, _⟩ => show win0_0.index t (0 : Fin 2) * 1024 + 1 * r.val = win0_2.index t (0 : Fin 2) * 1024 + r.val; omega
    | ⟨1, _⟩ => show win0_0.index t (1 : Fin 2) * 1024 + 1 * k.val = k.val; omega
  · intro r k
    show V m c main_v0 (((cfg0.win 1).blk t).view.emb (ix2 r k)) = V m c main_v0 _
    refine congrArg (V m c main_v0) (funext fun a => Fin.ext ?_)
    match a with
    | ⟨0, _⟩ => show win0_1.index t (0 : Fin 2) * 1024 + 1 * r.val = win0_2.index t (1 : Fin 2) * 1024 + r.val; omega
    | ⟨1, _⟩ => show win0_1.index t (1 : Fin 2) * 1024 + 1 * k.val = k.val; omega
  · refine congrArg (dist (X m c) (C m c)) (funext fun a => Fin.ext ?_)
    match a with
    | ⟨0, _⟩ => show win0_2.index t (0 : Fin 2) * 1024 + (j 0).val = win0_2.index t (0 : Fin 2) * 1024 + 1 * (j 0).val; omega
    | ⟨1, _⟩ => show win0_2.index t (1 : Fin 2) * 1024 + (j 1).val = win0_2.index t (1 : Fin 2) * 1024 + 1 * (j 1).val; omega

/-- An index of the result is in point `t`'s tile iff each coordinate is in the tile's range on its axis. -/
theorem mem_blk (t : Fin cfg0.N) (i : S16384x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- The tiles cover the result: `(r, s)` lies in the tile of the point with block indices `(r / 1024, s / 1024)`. -/
theorem cover (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the clamped squared distance of the two ARGUMENTS. -/
theorem final (c : Dev nD) :
    (dats m 0 c).arrAt 2 cfg0.N = dist (m ((c : Thread nD τ).loc main_arg0)) (m ((c : Thread nD τ).loc main_arg1)) := by
  rw [(dats m 0 c).arrAt_eq_of_cover 2 (dist (X m c) (C m c)) (fun t _ => flushed_eq m c t) cover, centres_eq]
  show dist (V m c main_arg0) _ = _
  rw [V_main_arg0]

/-- The kernel's run with the result named: every weakly fair execution terminates with the result array at the
    clamped squared distance of the arguments, and the arguments unchanged. -/
theorem run : θ_run defs (onTc (τ := τ) (main (F := Ideal))) ⟨m, fun _ => 0, ρ⟩ fun r => ∀ c : Dev nD,
      r.2.mem ((c : Thread nD τ).loc main_v1) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.RefValue.lean ====
/-
  The reference computes the clamped squared distance.

  Read one operation at a time, the reference's result at `(p, q)` is
      max ( ((0 + Σₖ x[p,k]·x[p,k]) + (0 + Σₖ c[q,k]·c[q,k])) − 2 · Σₖ x[p,k]·c[q,k] , 0 ):
  the two host sums start from the constant zero, the column `‖x_p‖²` and the row `‖c_q‖²` are broadcast over the
  result, and the inner products are one `dot_general` contracting the second axis of both arrays. With `0 + s = s`
  on the extended reals this is `SqDist.dist x c` at `(p, q)`.
-/
import proofs.«114532_j52424370815597_2_alg».proof.Proof.Gen.ReferenceIdeal.Read
import proofs.«114532_j52424370815597_2_alg».proof.Proof.SqDist
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.SqDist

/-- The result entry `(p, q)` reads the sum of squares of row `p` of `x` through the two broadcasts; -/
theorem row_x (p : Fin 16384) (q : Fin 4096) (k : Fin 1024) :
    idx_main_v1 (idx_main_v2 (idx_main_v7 (ix2 p q))) k = ix2 p k :=
  funext fun a => Fin.ext (by match a with | ⟨0, _⟩ => rfl | ⟨1, _⟩ => rfl)

/-- the sum of squares of row `q` of `c` likewise; -/
theorem row_c (p : Fin 16384) (q : Fin 4096) (k : Fin 1024) :
    idx_main_v4 (idx_main_v6 (idx_main_v8 (ix2 p q))) k = ix2 q k :=
  funext fun a => Fin.ext (by match a with | ⟨0, _⟩ => rfl | ⟨1, _⟩ => rfl)

/-- and the inner product pairs row `p` of `x` with row `q` of `c`, column by column. -/
theorem dot_x (p : Fin 16384) (q : Fin 4096) (k : Fin 1024) : lidx_main_v5 (ix2 p q) k = ix2 p k :=
  funext fun a => Fin.ext (by match a with | ⟨0, _⟩ => rfl | ⟨1, _⟩ => rfl)
theorem dot_c (p : Fin 16384) (q : Fin 4096) (k : Fin 1024) : ridx_main_v5 (ix2 p q) k = ix2 q k :=
  funext fun a => Fin.ext (by match a with | ⟨0, _⟩ => rfl | ⟨1, _⟩ => rfl)

/-- The reference's last stage is the clamped squared distance of its two arguments. -/
theorem ref_is_dist (x : (⟨S16384x1024, .f32⟩ : BufTy).Contents (Elt Ideal)) (c : (⟨S4096x1024, .f32⟩ : BufTy).Contents (Elt Ideal)) :
    val_main_v14 (F := Ideal) x c = dist x c := by
  funext i
  obtain ⟨p, q, rfl⟩ : ∃ (p : Fin 16384) (q : Fin 4096), i = ix2 p q := ⟨i 0, i 1, eq_ix2 i⟩
  rw [val_main_v14_apply, val_main_v12_apply, val_main_v9_apply, val_main_v7_apply, val_main_v2_apply, val_main_v1_apply,
    val_main_v8_apply, val_main_v6_apply, val_main_v4_apply, val_main_v11_apply, val_main_v10_apply, val_main_v5_apply,
    val_main_v13_apply]
  simp only [row_x, row_c, dot_x, dot_c, val_main_v0_apply, val_main_v3_apply, val_main_cst_apply, val_main_cst_0_apply,
    val_main_cst_1_apply, val_main_cst_2_apply, Ideal.mulf_def, Ideal.addf_def, Ideal.subf_def, Ideal.maximumf_def,
    Ideal.ofBits_def, Ideal.ofBits_zero_f32, zero_add]
  rfl

end Cert.ReferenceIdeal.RefValue

end
-- ==== Proof.lean ====
/-
  The kernel and the reference compute the same clamped squared Euclidean distances.

  For `x : f32[16384, 1024]` and centres `c : f32[4096, 1024]` both programs return, at `(p, q)`,

      max ( (Σₖ x[p,k]² + Σₖ c[q,k]²) − 2 · Σₖ x[p,k] · c[q,k] , 0 ),

  the expansion ‖x_p‖² + ‖c_q‖² − 2⟨x_p, c_q⟩ of ‖x_p − c_q‖², clamped below at zero. The reference forms the three sums
  over the whole arrays. The kernel rounds the centres to bf16 on the host, then over a 16 × 4 grid takes a
  1024-row block of each array, forms the two row sums of squares and one matrix product of the (rounded) blocks on the
  tile, and writes the tile back. On the extended reals a change of float format is the identity and the sums are
  exact, so each tile is the restriction of the one whole-array function `SqDist.dist x c` (Proof/BlockValue.lean: one
  tile entry; Proof/ArrayValue.lean: the tiles cover the array), and the reference's composed term is that function too
  (Proof/RefValue.lean). Both sides keep the three sums apart and group them alike, so the only law used is `0 + s = s`
  (the host sums start from the constant zero): nothing here needs the inputs finite.

  The three frames are the generated ones (the reference's is its generated run with the result dropped); the ideal
  pass rewrote nothing, so there is nothing to preserve.
-/
import proofs.«114532_j52424370815597_2_alg».proof.Defs
import proofs.«114532_j52424370815597_2_alg».proof.Proof.Gen.Kernel
import proofs.«114532_j52424370815597_2_alg».proof.Proof.Gen.Kernel.Skeleton
import proofs.«114532_j52424370815597_2_alg».proof.Proof.Gen.Kernel.Launch
import proofs.«114532_j52424370815597_2_alg».proof.Proof.Gen.Kernel.Points
import proofs.«114532_j52424370815597_2_alg».proof.Proof.Gen.Kernel.Frame
import proofs.«114532_j52424370815597_2_alg».proof.Proof.Gen.KernelIdeal
import proofs.«114532_j52424370815597_2_alg».proof.Proof.Gen.KernelIdeal.Skeleton
import proofs.«114532_j52424370815597_2_alg».proof.Proof.Gen.KernelIdeal.Launch
import proofs.«114532_j52424370815597_2_alg».proof.Proof.Gen.KernelIdeal.Points
import proofs.«114532_j52424370815597_2_alg».proof.Proof.Gen.KernelIdeal.Frame
import proofs.«114532_j52424370815597_2_alg».proof.Proof.Gen.ReferenceIdeal
import proofs.«114532_j52424370815597_2_alg».proof.Proof.Gen.KernelIdeal.Value
import proofs.«114532_j52424370815597_2_alg».proof.Proof.Gen.ReferenceIdeal.Run
import proofs.«114532_j52424370815597_2_alg».proof.Proof.Gen.ReferenceIdeal.Read
import proofs.«114532_j52424370815597_2_alg».proof.Proof.Gen.Pre_finite_inputs
import proofs.«114532_j52424370815597_2_alg».proof.Proof.ArrayValue
import proofs.«114532_j52424370815597_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the two arguments, the kernel's result array ends at `SqDist.dist x c`
    (`ArrayValue.run`) and the reference's at its composed term, which is the same function (`RefValue.ref_is_dist`) of
    the same arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_is_dist, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
